-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x128x64 : Shape := ⟨4, ![1, 64, 128, 64]⟩
abbrev S_ : Shape := ⟨0, ![]⟩

class Facts : Prop where
  bcast_S_S1x64x128x64 : S_.BroadcastsInDim S1x64x128x64 (![] : Fin 0 → Fin S1x64x128x64.rank)
  reducesTo_S1x64x128x64_S_d0_1_2_3 : S1x64x128x64.ReducesTo [0, 1, 2, 3] S_
  h_S_ : 0 < S_.numel

variable [Facts]

def fn {F : FTy → Type} [FloatOps F] (main_arg0 : FVec F S1x64x128x64 .f32) (main_arg1 : FVec F S1x64x128x64 .f32) : IVec S_ 1 :=
  let main_v0 : FVec F S1x64x128x64 .f32 := Host.absf main_arg0
  let main_cst : FVec F S_ .f32 := constant S_ .f32 0x7F800000#32
  let main_v1 : FVec F S1x64x128x64 .f32 := broadcastInDim S1x64x128x64 ![] bcast_S_S1x64x128x64 main_cst
  let main_v2 : IVec S1x64x128x64 1 := cmpf .olt main_v0 main_v1
  let main_c : IVec S_ 1 := constantI S_ 1 1#1
  let main_v3 : IVec S_ 1 := (fun x v => Host.reduce IntOp.andi x v reducesTo_S1x64x128x64_S_d0_1_2_3 h_S_) main_v2 main_c
  let main_v4 : FVec F S1x64x128x64 .f32 := Host.absf main_arg1
  let main_cst_0 : FVec F S_ .f32 := constant S_ .f32 0x7F800000#32
  let main_v5 : FVec F S1x64x128x64 .f32 := broadcastInDim S1x64x128x64 ![] bcast_S_S1x64x128x64 main_cst_0
  let main_v6 : IVec S1x64x128x64 1 := cmpf .olt main_v4 main_v5
  let main_c_1 : IVec S_ 1 := constantI S_ 1 1#1
  let main_v7 : IVec S_ 1 := (fun x v => Host.reduce IntOp.andi x v reducesTo_S1x64x128x64_S_d0_1_2_3 h_S_) main_v6 main_c_1
  let main_v8 : IVec S_ 1 := andi main_v3 main_v7
  main_v8
-- ==== Kernel.lean ====
abbrev S1x64x128x64 : Shape := ⟨4, ![1, 64, 128, 64]⟩
abbrev S64x8192 : Shape := ⟨2, ![64, 8192]⟩
abbrev S1x1 : Shape := ⟨2, ![1, 1]⟩
abbrev S64x2048 : Shape := ⟨2, ![64, 2048]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S1x64x128x64, .f32⟩
  | .hbm, ⟨1, _⟩ => ⟨S1x64x128x64, .f32⟩
  | .hbm, ⟨2, _⟩ => ⟨S64x8192, .f32⟩
  | .hbm, ⟨3, _⟩ => ⟨S64x8192, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S1x1, .f32⟩
  | .local _ .vmem, ⟨5, _⟩ => ⟨S64x64, .f32⟩
  | .local _ .vmem, ⟨6, _⟩ => ⟨S64x64, .f32⟩
  | _, _ => ⟨S1x64x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v19 : BitVec 1 := Scalar.cmpi .eq arg0 c3_i32
  let v20 : BitVec 32 := Scalar.extui v19
  let c0_i32_13 : BitVec 32 := 0#32
  let v21 : BitVec 1 := Scalar.cmpi .ne v20 c0_i32_13
  v21

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x64x128x64_S64x8192 : S1x64x128x64.ShapeCasts S64x8192
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S64x64_S64 : S64x64.Reduces [1] S64
  shapeCasts_S64_S64x1 : S64.ShapeCasts S64x1
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S64x2048_S64x2048_S64x64_1_1_0_0_n_n_wf : DotDims.WF S64x2048 S64x2048 S64x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S64x8192.size a
  hwx0_0 : ∀ i : grid0.Coords, EltTy.bits .f32 = 32 ∨ (Rect.block (s := S64x8192) S64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x8192.size a
  hwx0_1 : ∀ i : grid0.Coords, EltTy.bits .f32 = 32 ∨ (Rect.block (s := S64x8192) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S64x2048_S64x2048_S64x64_1_1_0_0_n_n : DotDims S64x2048 S64x2048 S64x64 where
  lhsContracting := [1]
  rhsContracting := [1]
  lhsNonContracting := [0]
  rhsNonContracting := [0]
  lhsBatch := []
  rhsBatch := []
  wf := dot_S64x2048_S64x2048_S64x64_1_1_0_0_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1x64x128x64 : Shape := ⟨4, ![1, 64, 128, 64]⟩
abbrev S64x8192 : Shape := ⟨2, ![64, 8192]⟩
abbrev S8192x64 : Shape := ⟨2, ![8192, 64]⟩
abbrev S8192x8192 : Shape := ⟨2, ![8192, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x64x128x64, .f32⟩
  | .hbm, ⟨1, _⟩ => ⟨S1x64x128x64, .f32⟩
  | .hbm, ⟨2, _⟩ => ⟨S64x8192, .f32⟩
  | .hbm, ⟨3, _⟩ => ⟨S8192x64, .f32⟩
  | .hbm, ⟨4, _⟩ => ⟨S64x8192, .f32⟩
  | .hbm, ⟨5, _⟩ => ⟨S8192x64, .f32⟩
  | .hbm, ⟨6, _⟩ => ⟨S64x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S64x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S64x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S1x64x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S1x64x128x64_S64x8192 : S1x64x128x64.ShapeCasts S64x8192
  transposes_S64x8192_S8192x64_1_0 : S64x8192.Transposes [1, 0] S8192x64
  transposes_S8192x64_S64x8192_1_0 : S8192x64.Transposes [1, 0] S64x8192
  bcast_S_S8192x8192 : S_.BroadcastsInDim S8192x8192 (![] : Fin 0 → Fin S8192x8192.rank)
  reducesTo_S8192x8192_S_d0_1 : S8192x8192.ReducesTo [0, 1] S_
  h_S_ : 0 < S_.numel
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelCarried.lean ====
/-
  What the kernel's body leaves behind, read as values.

  The body keeps two 64 x 64 accumulators in scratch memory across the four grid points: one for the first operand's
  Gram matrix, one for the second's.  At the first point it stores zeros into both and then adds the point's
  contribution; at the two middle points it only adds; at the last point it adds and then reduces the squared
  difference of the two accumulators to the single output element.  Each case's stores cover the buffer they write,
  so what a buffer holds afterwards is the last store's payload, a pure function of the point's two input blocks and
  of what the accumulators held before.  By induction on the point the accumulators are the four-fold iterate of
  "add this block's products" starting from zero (`gramAcc`, `gramAcc'`), and the output after the last point is
  the reduction applied to them (`out_after_last`).  Nothing here depends on the float instance.
-/
import proofs.«127739_j83365315215382_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-! ## The three cases, buffer by buffer -/

/-- First point, first accumulator: zeros stored, read back, and the block's products added. -/
theorem first_acc (c : Dev nD) (i : grid0.Coords) (a1 : Memref sig .tc .vmem S64x2048 .f32) (h1 : a1.IsWhole)
    (a2 : Memref sig .tc .vmem S64x2048 .f32) (h2 : a2.IsWhole) (a3 : Memref sig .tc .vmem S1x1 .f32) (h3 : a3.IsWhole)
    (a4 : Memref sig .tc .vmem S64x64 .f32) (h4 : a4.IsWhole) (a5 : Memref sig .tc .vmem S64x64 .f32) (h5 : a5.IsWhole)
    (hc0 : cond0_0 i) (hc1 : ¬cond0_1 i) (x0 x1 : Vec F S64x2048 .f32) :
    sout0_A_0 c i a1 h1 a2 h2 a3 h3 a4 h4 a5 h5 hc0 hc1 x0 x1 = k0_pay3 x0 (k0_pay1 (F := F)) := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S64x64) hz, View.readCov_unit_zero (S := S64x64) _ hz]
  simp only [View.readAt_eq_ld, h1.read_unread, h2.read_unread, h4.read_unread, h5.read_unread,
    View.ld_unit_zero (S := S64x2048) hz, View.ld_unit_zero (S := S64x64) hz]

/-- First point, second accumulator. -/
theorem first_acc' (c : Dev nD) (i : grid0.Coords) (a1 : Memref sig .tc .vmem S64x2048 .f32) (h1 : a1.IsWhole)
    (a2 : Memref sig .tc .vmem S64x2048 .f32) (h2 : a2.IsWhole) (a3 : Memref sig .tc .vmem S1x1 .f32) (h3 : a3.IsWhole)
    (a4 : Memref sig .tc .vmem S64x64 .f32) (h4 : a4.IsWhole) (a5 : Memref sig .tc .vmem S64x64 .f32) (h5 : a5.IsWhole)
    (hc0 : cond0_0 i) (hc1 : ¬cond0_1 i) (x0 x1 : Vec F S64x2048 .f32) :
    sout0_A_1 c i a1 h1 a2 h2 a3 h3 a4 h4 a5 h5 hc0 hc1 x0 x1 = k0_pay4 x1 (k0_pay2 (F := F)) := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S64x64) hz, View.readCov_unit_zero (S := S64x64) _ hz]
  simp only [View.readAt_eq_ld, h1.read_unread, h2.read_unread, h4.read_unread, h5.read_unread,
    View.ld_unit_zero (S := S64x2048) hz, View.ld_unit_zero (S := S64x64) hz]

/-- A middle point, first accumulator: the block's products added to what the point before left. -/
theorem mid_acc (c : Dev nD) (i : grid0.Coords) (a1 : Memref sig .tc .vmem S64x2048 .f32) (h1 : a1.IsWhole)
    (a2 : Memref sig .tc .vmem S64x2048 .f32) (h2 : a2.IsWhole) (a3 : Memref sig .tc .vmem S1x1 .f32) (h3 : a3.IsWhole)
    (a4 : Memref sig .tc .vmem S64x64 .f32) (h4 : a4.IsWhole) (a5 : Memref sig .tc .vmem S64x64 .f32) (h5 : a5.IsWhole)
    (hc0 : ¬cond0_0 i) (hc1 : ¬cond0_1 i) (x0 x1 : Vec F S64x2048 .f32) (xs0 xs1 : Vec F S64x64 .f32) :
    sout0_B_0 c i a1 h1 a2 h2 a3 h3 a4 h4 a5 h5 hc0 hc1 x0 x1 xs0 xs1 = k0_pay3 x0 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  rw [View.canon_unit_zero hz]
  simp only [View.readAt_eq_ld, h1.read_unread, h2.read_unread, h4.read_unread, h5.read_unread,
    View.ld_unit_zero (S := S64x2048) hz, View.ld_unit_zero (S := S64x64) hz]

/-- A middle point, second accumulator. -/
theorem mid_acc' (c : Dev nD) (i : grid0.Coords) (a1 : Memref sig .tc .vmem S64x2048 .f32) (h1 : a1.IsWhole)
    (a2 : Memref sig .tc .vmem S64x2048 .f32) (h2 : a2.IsWhole) (a3 : Memref sig .tc .vmem S1x1 .f32) (h3 : a3.IsWhole)
    (a4 : Memref sig .tc .vmem S64x64 .f32) (h4 : a4.IsWhole) (a5 : Memref sig .tc .vmem S64x64 .f32) (h5 : a5.IsWhole)
    (hc0 : ¬cond0_0 i) (hc1 : ¬cond0_1 i) (x0 x1 : Vec F S64x2048 .f32) (xs0 xs1 : Vec F S64x64 .f32) :
    sout0_B_1 c i a1 h1 a2 h2 a3 h3 a4 h4 a5 h5 hc0 hc1 x0 x1 xs0 xs1 = k0_pay4 x1 xs1 := by
  unfold sout0_B_1
  rw [View.read_writes_eq_canon _ _ _ (scover0_B_1 c i a1 h1 a2 h2 a3 h3 a4 h4 a5 h5 hc0 hc1 x0 x1 xs0 xs1)]
  unfold kernelRun0_B
  dsimp only
  rw [View.canon_unit_zero hz]
  simp only [View.readAt_eq_ld, h1.read_unread, h2.read_unread, h4.read_unread, h5.read_unread,
    View.ld_unit_zero (S := S64x2048) hz, View.ld_unit_zero (S := S64x64) hz]

/-- The last point, first accumulator: as at a middle point. -/
theorem last_acc (c : Dev nD) (i : grid0.Coords) (a1 : Memref sig .tc .vmem S64x2048 .f32) (h1 : a1.IsWhole)
    (a2 : Memref sig .tc .vmem S64x2048 .f32) (h2 : a2.IsWhole) (a3 : Memref sig .tc .vmem S1x1 .f32) (h3 : a3.IsWhole)
    (a4 : Memref sig .tc .vmem S64x64 .f32) (h4 : a4.IsWhole) (a5 : Memref sig .tc .vmem S64x64 .f32) (h5 : a5.IsWhole)
    (hc0 : ¬cond0_0 i) (hc1 : cond0_1 i) (x0 x1 : Vec F S64x2048 .f32) (xs0 xs1 : Vec F S64x64 .f32) :
    sout0_C_0 c i a1 h1 a2 h2 a3 h3 a4 h4 a5 h5 hc0 hc1 x0 x1 xs0 xs1 = k0_pay3 x0 xs0 := by
  unfold sout0_C_0
  rw [View.read_writes_eq_canon _ _ _ (scover0_C_0 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S64x2048) hz, View.ld_unit_zero (S := S64x64) hz]

/-- The last point, second accumulator. -/
theorem last_acc' (c : Dev nD) (i : grid0.Coords) (a1 : Memref sig .tc .vmem S64x2048 .f32) (h1 : a1.IsWhole)
    (a2 : Memref sig .tc .vmem S64x2048 .f32) (h2 : a2.IsWhole) (a3 : Memref sig .tc .vmem S1x1 .f32) (h3 : a3.IsWhole)
    (a4 : Memref sig .tc .vmem S64x64 .f32) (h4 : a4.IsWhole) (a5 : Memref sig .tc .vmem S64x64 .f32) (h5 : a5.IsWhole)
    (hc0 : ¬cond0_0 i) (hc1 : cond0_1 i) (x0 x1 : Vec F S64x2048 .f32) (xs0 xs1 : Vec F S64x64 .f32) :
    sout0_C_1 c i a1 h1 a2 h2 a3 h3 a4 h4 a5 h5 hc0 hc1 x0 x1 xs0 xs1 = k0_pay4 x1 xs1 := by
  unfold sout0_C_1
  rw [View.read_writes_eq_canon _ _ _ (scover0_C_1 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S64x2048) hz, View.ld_unit_zero (S := S64x64) hz]

/-- The last point, the output element: the reduction of the two accumulators as this point has just updated them. -/
theorem last_out (c : Dev nD) (i : grid0.Coords) (a1 : Memref sig .tc .vmem S64x2048 .f32) (h1 : a1.IsWhole)
    (a2 : Memref sig .tc .vmem S64x2048 .f32) (h2 : a2.IsWhole) (a3 : Memref sig .tc .vmem S1x1 .f32) (h3 : a3.IsWhole)
    (a4 : Memref sig .tc .vmem S64x64 .f32) (h4 : a4.IsWhole) (a5 : Memref sig .tc .vmem S64x64 .f32) (h5 : a5.IsWhole)
    (hc0 : ¬cond0_0 i) (hc1 : cond0_1 i) (x0 x1 : Vec F S64x2048 .f32) (xs0 xs1 : Vec F S64x64 .f32) :
    out0_C_2 c i a1 h1 a2 h2 a3 h3 a4 h4 a5 h5 hc0 hc1 x0 x1 xs0 xs1 = k0_pay5 (k0_pay3 x0 xs0) (k0_pay4 x1 xs1) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_unit_zero hz, View.readCov_unit_zero (S := S64x64) _ hz, View.readCov_unit_zero (S := S64x64) _ hz]
  simp only [View.readAt_eq_ld, h1.read_unread, h2.read_unread, h4.read_unread, h5.read_unread,
    View.ld_unit_zero (S := S64x2048) hz, View.ld_unit_zero (S := S64x64) hz]

/-! ## The accumulators after each point -/

variable (m : (ℓ : Loc nD τ sig) → Buf (Elt F) ℓ)

/-- The first operand's accumulator after point `n`: zero, then each point's block contribution added in turn. -/
def gramAcc (c : Dev nD) : (n : ℕ) → n < cfg0.N → Vec F S64x64 .f32
  | 0, h => k0_pay3 (iblk m c 0 ⟨0, h⟩) (k0_pay1 (F := F))
  | n + 1, h => k0_pay3 (iblk m c 0 ⟨n + 1, h⟩) (gramAcc c n (Nat.lt_of_succ_lt h))

/-- The second operand's accumulator after point `n`. -/
def gramAcc' (c : Dev nD) : (n : ℕ) → n < cfg0.N → Vec F S64x64 .f32
  | 0, h => k0_pay4 (iblk m c 1 ⟨0, h⟩) (k0_pay2 (F := F))
  | n + 1, h => k0_pay4 (iblk m c 1 ⟨n + 1, h⟩) (gramAcc' c n (Nat.lt_of_succ_lt h))

/-- What the two scratch buffers hold after point `n` is the two accumulators: by induction on the point, the case
    at each point read off its closed-form condition. -/
theorem carried_eq (c : Dev nD) : ∀ (n : ℕ) (h : n < cfg0.N),
    (outsAt0 m c n h).2.1 = gramAcc m c n h ∧ (outsAt0 m c n h).2.2 = gramAcc' m c n h
  | 0, h => by
    rw [outsAt0_A m c ⟨0, h⟩ rfl (by dsimp only; omega)]
    dsimp only
    exact ⟨first_acc .., first_acc' ..⟩
  | n + 1, h => by
    have hN : cfg0.N = 4 := N_0
    have h0 : ¬(⟨n + 1, h⟩ : Fin cfg0.N).val % 4 = 0 := by dsimp only; omega
    obtain ⟨ih, ih'⟩ := carried_eq c n (Nat.lt_of_succ_lt h)
    by_cases h1 : (⟨n + 1, h⟩ : Fin cfg0.N).val % 4 = 3
    · rw [outsAt0_C m c ⟨n + 1, h⟩ h0 h1]
      refine ⟨?_, ?_⟩
      · dsimp only; rw [last_acc]
        show k0_pay3 _ (outsAt0 m c n _).2.1 = k0_pay3 _ (gramAcc m c n _)
        rw [ih]
      · dsimp only; rw [last_acc']
        show k0_pay4 _ (outsAt0 m c n _).2.2 = k0_pay4 _ (gramAcc' m c n _)
        rw [ih']
    · rw [outsAt0_B m c ⟨n + 1, h⟩ h0 h1]
      refine ⟨?_, ?_⟩
      · dsimp only; rw [mid_acc]
        show k0_pay3 _ (outsAt0 m c n _).2.1 = k0_pay3 _ (gramAcc m c n _)
        rw [ih]
      · dsimp only; rw [mid_acc']
        show k0_pay4 _ (outsAt0 m c n _).2.2 = k0_pay4 _ (gramAcc' m c n _)
        rw [ih']

/-- After the last point the output's staging buffer holds the reduction of the two complete accumulators. -/
theorem out_after_last (c : Dev nD) (h : 3 < cfg0.N) :
    (outsAt0 m c 3 h).1 = k0_pay5 (gramAcc m c 3 h) (gramAcc' m c 3 h) := by
  rw [outsAt0_C m c ⟨3, h⟩ (by dsimp only; omega) (by dsimp only)]
  dsimp only; rw [last_out]
  show k0_pay5 (k0_pay3 _ (outsAt0 m c 2 _).2.1) (k0_pay4 _ (outsAt0 m c 2 _).2.2) = _
  rw [(carried_eq m c 2 _).1, (carried_eq m c 2 _).2]
  rfl

end Cert.KernelIdeal.Carried

end
-- ==== Proof.GramIdentity.lean ====
/-
  The algebra that joins the two spellings of the loss.

  Write `x, y : A → I → ℝ` for the two feature matrices, channels `A` by positions `I`.  One side sums, over all
  pairs of POSITIONS `(i, j)`, the squared inner products of columns,
      (x·ᵢ · x·ⱼ)² + (y·ᵢ · y·ⱼ)² − 2 (x·ᵢ · y·ⱼ)²,
  the other sums, over all pairs of CHANNELS `(a, b)`, the squared difference of the two Gram matrices of rows,
      ((xₐ· · x_b·) − (yₐ· · y_b·))².
  Both are the squared Frobenius norm of `x xᵀ − y yᵀ`: expanding a squared inner product as a double sum and
  exchanging the order of summation gives
      ∑ᵢⱼ (∑_c u c i · v c j)² = ∑ₐ_b (∑ᵢ u a i · u b i) (∑ⱼ v a j · v b j),
  and the three terms recombine into one square.  Every step uses distributivity, so the identity is one of real
  numbers; on the extended reals it is used only at finite values, through the coercion (`coe_sum` below).
  Also here: a sum over 8192 columns as the ordered sum of four stretches of 2048 columns (any commutative monoid).
-/
import Mathlib.Algebra.BigOperators.Ring.Finset
import Mathlib.Algebra.BigOperators.Fin
import Mathlib.Logic.Equiv.Fin.Basic
import Mathlib.Data.EReal.Inv
import Mathlib.Tactic.Ring

namespace GramIdentity

open Finset

/-- Four nested finite sums, the outer pair exchanged with the inner pair. -/
theorem sum4_swap {I J A B : Type*} [Fintype I] [Fintype J] [Fintype A] [Fintype B] (f : I → J → A → B → ℝ) :
    ∑ i, ∑ j, ∑ a, ∑ b, f i j a b = ∑ a, ∑ b, ∑ i, ∑ j, f i j a b := by
  calc ∑ i, ∑ j, ∑ a, ∑ b, f i j a b
      = ∑ i, ∑ a, ∑ j, ∑ b, f i j a b := Finset.sum_congr rfl fun i _ => Finset.sum_comm
    _ = ∑ a, ∑ i, ∑ j, ∑ b, f i j a b := Finset.sum_comm
    _ = ∑ a, ∑ i, ∑ b, ∑ j, f i j a b :=
        Finset.sum_congr rfl fun a _ => Finset.sum_congr rfl fun i _ => Finset.sum_comm
    _ = ∑ a, ∑ b, ∑ i, ∑ j, f i j a b := Finset.sum_congr rfl fun a _ => Finset.sum_comm

section Identity

variable {A I : Type*} [Fintype A] [Fintype I]

/-- The sum over pairs of positions of the squared inner product of column `i` of `u` with column `j` of `v` is the
    sum over pairs of channels of the product of the two Gram entries: expand the square, exchange the sums. -/
theorem sum_sq_inner (u v : A → I → ℝ) :
    ∑ i, ∑ j, (∑ c, u c i * v c j) * (∑ c, u c i * v c j)
      = ∑ a, ∑ b, (∑ i, u a i * u b i) * (∑ j, v a j * v b j) := by
  have hL : ∀ i j, (∑ c, u c i * v c j) * (∑ c, u c i * v c j)
      = ∑ a, ∑ b, (u a i * v a j) * (u b i * v b j) := fun i j => Finset.sum_mul_sum _ _ _ _
  have hR : ∀ a b, (∑ i, u a i * u b i) * (∑ j, v a j * v b j)
      = ∑ i, ∑ j, (u a i * u b i) * (v a j * v b j) := fun a b => Finset.sum_mul_sum _ _ _ _
  simp only [hL, hR]
  rw [sum4_swap]
  refine Finset.sum_congr rfl fun a _ => Finset.sum_congr rfl fun b _ => Finset.sum_congr rfl fun i _ =>
    Finset.sum_congr rfl fun j _ => ?_
  ring

/-- A double sum of `P + Q - 2 C` splits into the three double sums. -/
theorem sum_split3 (P Q C : I → I → ℝ) :
    ∑ i, ∑ j, (P i j + Q i j - 2 * C i j) = (∑ i, ∑ j, P i j) + (∑ i, ∑ j, Q i j) - 2 * (∑ i, ∑ j, C i j) := by
  simp only [Finset.sum_sub_distrib, Finset.sum_add_distrib, Finset.mul_sum]

/-- `∑ G² + ∑ H² - 2 ∑ G H = ∑ (G - H)²`, entry by entry. -/
theorem sum_sq_sub (G H : A → A → ℝ) :
    (∑ a, ∑ b, G a b * G a b) + (∑ a, ∑ b, H a b * H a b) - 2 * (∑ a, ∑ b, G a b * H a b)
      = ∑ a, ∑ b, (G a b - H a b) * (G a b - H a b) := by
  simp only [Finset.mul_sum, ← Finset.sum_add_distrib, ← Finset.sum_sub_distrib]
  refine Finset.sum_congr rfl fun a _ => Finset.sum_congr rfl fun b _ => ?_
  ring

/-- THE IDENTITY: the position-pair spelling of the loss is the channel-pair spelling. -/
theorem loss_identity (x y : A → I → ℝ) :
    ∑ i, ∑ j, ((∑ c, x c i * x c j) * (∑ c, x c i * x c j) + (∑ c, y c i * y c j) * (∑ c, y c i * y c j)
        - 2 * ((∑ c, x c i * y c j) * (∑ c, x c i * y c j)))
      = ∑ a, ∑ b, ((∑ i, x a i * x b i) - (∑ i, y a i * y b i)) * ((∑ i, x a i * x b i) - (∑ i, y a i * y b i)) := by
  refine (sum_split3 _ _ _).trans ?_
  rw [sum_sq_inner x x, sum_sq_inner y y, sum_sq_inner x y]
  exact sum_sq_sub (fun a b => ∑ i, x a i * x b i) (fun a b => ∑ i, y a i * y b i)

end Identity

/-! ## Finite sums of reals, read in the extended reals -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## 8192 columns as four stretches of 2048 -/

/-- Column `j` of stretch `s`. -/
def col (s : Fin 4) (j : Fin 2048) : Fin 8192 := ⟨2048 * s.val + j.val, by omega⟩

theorem col_val (s : Fin 4) (j : Fin 2048) : (col s j).val = 2048 * s.val + j.val := rfl

/-- A sum over the 8192 columns is the sum over the four stretches of the sums over each stretch. -/
theorem sum_stretches {M : Type*} [AddCommMonoid M] (f : Fin 8192 → M) :
    ∑ k : Fin 8192, f k = ∑ s : Fin 4, ∑ j : Fin 2048, f (col s j) := by
  rw [← Fintype.sum_prod_type']
  have h := Equiv.sum_comp (finProdFinEquiv (m := 4) (n := 2048)) (fun k : Fin (4 * 2048) => f ⟨k.val, k.isLt⟩)
  have h' : ∑ k : Fin 8192, f k = ∑ k : Fin (4 * 2048), f ⟨k.val, k.isLt⟩ := rfl
  rw [h', ← h]
  refine Finset.sum_congr rfl fun p _ => congrArg f (Fin.ext ?_)
  show (p.2.val + 2048 * p.1.val) = 2048 * p.1.val + p.2.val
  omega

/-- The four stretches added one after the other onto zero, as an accumulator carried across them does. -/
theorem chain_stretches {M : Type*} [AddCommMonoid M] (f : Fin 8192 → M) :
    (((0 + ∑ j : Fin 2048, f (col 0 j)) + ∑ j : Fin 2048, f (col 1 j)) + ∑ j : Fin 2048, f (col 2 j))
        + ∑ j : Fin 2048, f (col 3 j) = ∑ k : Fin 8192, f k := by
  rw [sum_stretches, Fin.sum_univ_four, zero_add]

end GramIdentity
-- ==== Proof.KernelWhole.lean ====
/-
  The kernel program's run, read as values of whole arrays.

  Before the region the two arguments are laid out as 64 rows of 8192 columns (a reshape: the same row-major
  positions).  Grid point `t` reads, of each, the block of columns `2048 t … 2048 t + 2047`: entry `(a, k)` of the
  block is entry `(a, 2048 t + k)` of the array.  The output array has one element and one block; only the last
  point writes it back, so after the run it holds what the last point left.  After the region the program drops the
  two unit axes and multiplies by the scale constant.  Nothing here depends on the float instance.
-/
import proofs.«127739_j83365315215382_2_alg».proof.Proof.KernelCarried
import proofs.«127739_j83365315215382_2_alg».proof.Proof.GramIdentity
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Carried Idealize.ShloMosaic.ValueIdx

variable {F : FTy → Type} [FloatOps F]
variable (m : (ℓ : Loc nD τ sig) → Buf (Elt F) ℓ) (ρ : Dev nD → PrngReg)

/-- The first argument laid out as 64 rows of 8192 columns. -/
abbrev rowsX (c : Dev nD) : FVec F S64x8192 .f32 :=
  shapeCast S64x8192 (m ((c : Thread nD τ).loc main_arg0)) shapeCasts_S1x64x128x64_S64x8192
/-- The second argument laid out the same way. -/
abbrev rowsY (c : Dev nD) : FVec F S64x8192 .f32 :=
  shapeCast S64x8192 (m ((c : Thread nD τ).loc main_arg1)) shapeCasts_S1x64x128x64_S64x8192

/-- The region finds the first operand's array at the reshaped first argument. -/
theorem V_rowsX (c : Dev nD) : (V m c main_v0 : S64x8192.Idx → Elt F .f32) = rowsX m c := by
  show StableHlo.after hostOps0 (fun b => m (c, b)) (Proc.devRef .tc main_v0) = _
  after_results
  rfl

/-- And the second operand's at the reshaped second argument. -/
theorem V_rowsY (c : Dev nD) : (V m c main_v1 : S64x8192.Idx → Elt F .f32) = rowsY m c := by
  show StableHlo.after hostOps0 (fun b => m (c, b)) (Proc.devRef .tc main_v1) = _
  after_results
  rfl

/-- Both operand windows step along the columns: block `t` is at block row 0, block column `t`. -/
theorem index_facts : ∀ t : Fin cfg0.N, win0_0.index t 0 = 0 ∧ win0_0.index t 1 = t.val
    ∧ win0_1.index t 0 = 0 ∧ win0_1.index t 1 = t.val :=
  (by decide +kernel : ∀ t : Fin grid0.N, win0_0.index t 0 = 0 ∧ win0_0.index t 1 = t.val
    ∧ win0_1.index t 0 = 0 ∧ win0_1.index t 1 = t.val)

/-- Entry `(a, k)` of the first operand's block at point `t` is entry `(a, 2048 t + k)` of the array. -/
theorem blockX_apply (c : Dev nD) (t : Fin cfg0.N) (s : Fin 4) (hst : s.val = t.val) (a : Fin 64) (k : Fin 2048) :
    (iblk m c 0 t : Vec F S64x2048 .f32) (ix2 a k) = rowsX m c (ix2 a (GramIdentity.col s k)) := by
  rw [← V_rowsX]
  unfold iblk
  rw [View.read_apply]
  show V m c main_v0 _ = V m c main_v0 _
  congr 1
  funext d
  apply Fin.ext
  have hi := index_facts t
  match d with
  | ⟨0, _⟩ => show win0_0.index t 0 * 64 + 1 * a.val = a.val; rw [hi.1]; omega
  | ⟨1, _⟩ => show win0_0.index t 1 * 2048 + 1 * k.val = 2048 * s.val + k.val; rw [hi.2.1, hst]; omega

/-- The same for the second operand. -/
theorem blockY_apply (c : Dev nD) (t : Fin cfg0.N) (s : Fin 4) (hst : s.val = t.val) (a : Fin 64) (k : Fin 2048) :
    (iblk m c 1 t : Vec F S64x2048 .f32) (ix2 a k) = rowsY m c (ix2 a (GramIdentity.col s k)) := by
  rw [← V_rowsY]
  unfold iblk
  rw [View.read_apply]
  show V m c main_v1 _ = V m c main_v1 _
  congr 1
  funext d
  apply Fin.ext
  have hi := index_facts t
  match d with
  | ⟨0, _⟩ => show win0_1.index t 0 * 64 + 1 * a.val = a.val; rw [hi.2.2.1]; omega
  | ⟨1, _⟩ => show win0_1.index t 1 * 2048 + 1 * k.val = 2048 * s.val + k.val; rw [hi.2.2.2, hst]; omega

/-- The grid has a point 3, the last. -/
theorem h3 : 3 < cfg0.N := by rw [show cfg0.N = 4 from N_0]; decide

/-- The one output element, as the last point leaves it. -/
abbrev outElt (c : Dev nD) : Buf (Elt F) ((c : Thread nD τ).loc main_v2) :=
  k0_pay5 (gramAcc m c 3 h3) (gramAcc' m c 3 h3)

/-- The one write-back, at the last point, writes that element: the block is the whole one-element array. -/
theorem flushed_eq (c : Dev nD) (t : Fin cfg0.N) (hf : (cfg0.win 2).flush t = true) :
    (dats m 0 c).flushed 2 t = ((cfg0.win 2).blk t).view.read (Elt F) (outElt m c) := by
  have hN : cfg0.N = 4 := N_0
  have ht : t.val = 3 := by have := (flush0_2 t).mp hf; have := t.isLt; omega
  obtain rfl : t = t0_3 := Fin.ext ht
  show (cfg0.win 2).cut (grid0.coords t0_3) ((dats m 0 c).after 2 t0_3) = _
  rw [after0_2]
  rw [show (outsAt0 m c t0_3.val t0_3.isLt).1 = outElt m c from out_after_last m c _]
  have hz' : (fun a => win0_2.index t0_3 a * main_v2.ty.shape.size a) = fun _ => 0 := funext fun a => by fin_cases a <;> decide
  exact (Memref.read_access_unit_zero (Elt F) main_v2 hz' (fun a => by rw [congrFun hz' a]; simp) (outElt m c)).symm

/-- So the output array ends holding it. -/
theorem out_array (c : Dev nD) : (dats m 0 c).arrAt 2 cfg0.N = outElt m c :=
  (dats m 0 c).arrAt_eq_of_cover 2 (outElt m c) (flushed_eq m c) fun i =>
    ⟨t0_3, (flush0_2 t0_3).mpr rfl, by
      show i ∈ ((View.whole main_v2).slice (win0_2.rect t0_3)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_3 0 * win0_2.size 0 ≤ (i 0 : Nat) ∧ (i 0 : Nat) < win0_2.index t0_3 0 * win0_2.size 0 + win0_2.xsize (grid0.coords t0_3) 0
                  rw [show win0_2.index t0_3 0 * win0_2.size 0 = 0 from by decide +kernel, show win0_2.xsize (grid0.coords t0_3) 0 = 1 from by decide +kernel]; omega
      | ⟨1, _⟩ => show win0_2.index t0_3 1 * win0_2.size 1 ≤ (i 1 : Nat) ∧ (i 1 : Nat) < win0_2.index t0_3 1 * win0_2.size 1 + win0_2.xsize (grid0.coords t0_3) 1
                  rw [show win0_2.index t0_3 1 * win0_2.size 1 = 0 from by decide +kernel, show win0_2.xsize (grid0.coords t0_3) 1 = 1 from by decide +kernel]; omega⟩

/-- The two operations after the region: drop the unit axes, multiply by the scale. -/
theorem tail_eq (c : Dev nD) :
    Pipeline.afterTail₀ cfgs (dats m) 0 (V0 m) [hostOps1] c main_v4
      = mulf (shapeCast S_ (outElt m c) shapeCasts_S1x1_S_) (constant (F := F) S_ .f32 0x2C800000#32) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = outElt m c := (Pipeline.withArrays_arr spec0 launch0.win.arr_inj c _ _ 2).trans (out_array m c)
  rw [e]
  rfl

/-- The kernel program's run, read: the result at the scaled output element, the arguments unchanged. -/
theorem run : θ_run defs (onTc (τ := τ) (main (F := F))) ⟨m, fun _ => 0, ρ⟩ fun r => ∀ c : Dev nD,
      r.2.mem ((c.tc : Thread nD τ).loc main_v4)
        = mulf (shapeCast S_ (outElt m c) shapeCasts_S1x1_S_) (constant (F := F) S_ .f32 0x2C800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.KernelPayload.lean ====
/-
  The body's arithmetic at the exact instance, read at an index.

  Three payloads matter.  The zero fill is `0` everywhere.  The accumulation step takes a 64 x 2048 block `x` and the
  accumulator `acc` and returns `acc + x xᵀ`: at entry `(a, b)`, `acc (a, b) + ∑ₖ x (a, k) · x (b, k)`, the product
  contracted over the block's 2048 columns.  The closing reduction takes the two accumulators `g`, `h` and returns the
  one-element array holding `∑ₐ ∑_b (g (a, b) − h (a, b))²`: a lane sum along each row, the row sums laid out as a
  column, and a sum down that column.
-/
import proofs.«127739_j83365315215382_2_alg».proof.Proof.Gen.KernelIdeal.Skeleton
import proofs.«127739_j83365315215382_2_alg».proof.Proof.LibPlainDot
import proofs.«127739_j83365315215382_2_alg».proof.Proof.GramIdentity
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-! ## The product's operand indices -/

/-- The product keeps the left operand's row: its left index at output entry `j` has row `j 0`. -/
theorem lhs_row (j : S64x64.Idx) (q : dot_S64x2048_S64x2048_S64x64_1_1_0_0_n_n.contr.Idx) :
    (dot_S64x2048_S64x2048_S64x64_1_1_0_0_n_n.lhsIdx j q 0).val = (j 0).val := by
  unfold DotDims.lhsIdx
  rw [dif_neg (show ¬(0 : Fin S64x2048.rank) ∈ dot_S64x2048_S64x2048_S64x64_1_1_0_0_n_n.lhsBatch by decide),
    dif_pos (show (0 : Fin S64x2048.rank) ∈ dot_S64x2048_S64x2048_S64x64_1_1_0_0_n_n.lhsNonContracting by decide)]
  rfl

/-- Its left index's column is the contraction coordinate. -/
theorem lhs_col (j : S64x64.Idx) (q : dot_S64x2048_S64x2048_S64x64_1_1_0_0_n_n.contr.Idx) :
    (dot_S64x2048_S64x2048_S64x64_1_1_0_0_n_n.lhsIdx j q 1).val = (q ⟨0, by decide⟩).val :=
  dot_S64x2048_S64x2048_S64x64_1_1_0_0_n_n.lhsIdx_val_of_single rfl j q

/-- The right operand is contracted over its columns too, so its row is the output entry's column `j 1`. -/
theorem rhs_row (j : S64x64.Idx) (q : dot_S64x2048_S64x2048_S64x64_1_1_0_0_n_n.contr.Idx) :
    (dot_S64x2048_S64x2048_S64x64_1_1_0_0_n_n.rhsIdx j q 0).val = (j 1).val := by
  unfold DotDims.rhsIdx
  rw [dif_neg (show ¬(0 : Fin S64x2048.rank) ∈ dot_S64x2048_S64x2048_S64x64_1_1_0_0_n_n.rhsBatch by decide),
    dif_pos (show (0 : Fin S64x2048.rank) ∈ dot_S64x2048_S64x2048_S64x64_1_1_0_0_n_n.rhsNonContracting by decide)]
  rfl

/-- Its right index's column is the contraction coordinate. -/
theorem rhs_col (j : S64x64.Idx) (q : dot_S64x2048_S64x2048_S64x64_1_1_0_0_n_n.contr.Idx) :
    (dot_S64x2048_S64x2048_S64x64_1_1_0_0_n_n.rhsIdx j q 1).val = (q ⟨0, by decide⟩).val :=
  dot_S64x2048_S64x2048_S64x64_1_1_0_0_n_n.rhsIdx_val_of_single rfl j q

/-! ## The three payloads -/

/-- The zero fill of the first accumulator. -/
theorem zero_fill_apply (j : S64x64.Idx) : k0_pay1 (F := Ideal) j = 0 := by
  unfold k0_pay1
  simp only [shapeCast_self]
  exact Ideal.ofBits_zero_f32

/-- The zero fill of the second accumulator. -/
theorem zero_fill_apply' (j : S64x64.Idx) : k0_pay2 (F := Ideal) j = 0 := by
  unfold k0_pay2
  simp only [shapeCast_self]
  exact Ideal.ofBits_zero_f32

/-- `x xᵀ` into a zero accumulator, at entry `(a, b)`. -/
theorem gram_block_apply (x : FVec Ideal S64x2048 .f32) (a b : Fin 64) :
    FloatOps.matmul dot_S64x2048_S64x2048_S64x64_1_1_0_0_n_n (some .fp32) x x (constant S64x64 .f32 0x00000000#32) (ix2 a b)
      = ∑ k : Fin 2048, x (ix2 a k) * x (ix2 b k) :=
  Cert.LibPlainDot.matmul_zero_apply dot_S64x2048_S64x2048_S64x64_1_1_0_0_n_n (some .fp32) 2048 rfl rfl x x (ix2 a b)
    (fun k => ix2 a k) (fun k => ix2 b k)
    (fun q => Cert.LibPlainDot.ext2 _ _ (lhs_row _ q) (lhs_col _ q))
    (fun q => Cert.LibPlainDot.ext2 _ _ (rhs_row _ q) (rhs_col _ q))

/-- The first accumulator's step: `acc + x xᵀ` at entry `(a, b)`. -/
theorem acc_step_apply (x : FVec Ideal S64x2048 .f32) (acc : FVec Ideal S64x64 .f32) (a b : Fin 64) :
    k0_pay3 (F := Ideal) x acc (ix2 a b) = acc (ix2 a b) + ∑ k : Fin 2048, x (ix2 a k) * x (ix2 b k) := by
  unfold k0_pay3
  simp only [shapeCast_self]
  exact congrArg (acc (ix2 a b) + ·) (gram_block_apply x a b)

/-- The second accumulator's step. -/
theorem acc_step_apply' (y : FVec Ideal S64x2048 .f32) (acc : FVec Ideal S64x64 .f32) (a b : Fin 64) :
    k0_pay4 (F := Ideal) y acc (ix2 a b) = acc (ix2 a b) + ∑ k : Fin 2048, y (ix2 a k) * y (ix2 b k) := by
  unfold k0_pay4
  simp only [shapeCast_self]
  exact congrArg (acc (ix2 a b) + ·) (gram_block_apply y a b)

/-- Four steps from the zero fill: the four blocks' products added one after the other onto zero. -/
theorem acc_four_apply (x0 x1 x2 x3 : FVec Ideal S64x2048 .f32) (a b : Fin 64) :
    k0_pay3 (F := Ideal) x3 (k0_pay3 (F := Ideal) x2 (k0_pay3 (F := Ideal) x1 (k0_pay3 (F := Ideal) x0 (k0_pay1 (F := Ideal))))) (ix2 a b)
      = (((0 + ∑ k : Fin 2048, x0 (ix2 a k) * x0 (ix2 b k)) + ∑ k : Fin 2048, x1 (ix2 a k) * x1 (ix2 b k))
          + ∑ k : Fin 2048, x2 (ix2 a k) * x2 (ix2 b k)) + ∑ k : Fin 2048, x3 (ix2 a k) * x3 (ix2 b k) := by
  rw [acc_step_apply, acc_step_apply, acc_step_apply, acc_step_apply, zero_fill_apply]

/-- The same for the second accumulator. -/
theorem acc_four_apply' (y0 y1 y2 y3 : FVec Ideal S64x2048 .f32) (a b : Fin 64) :
    k0_pay4 (F := Ideal) y3 (k0_pay4 (F := Ideal) y2 (k0_pay4 (F := Ideal) y1 (k0_pay4 (F := Ideal) y0 (k0_pay2 (F := Ideal))))) (ix2 a b)
      = (((0 + ∑ k : Fin 2048, y0 (ix2 a k) * y0 (ix2 b k)) + ∑ k : Fin 2048, y1 (ix2 a k) * y1 (ix2 b k))
          + ∑ k : Fin 2048, y2 (ix2 a k) * y2 (ix2 b k)) + ∑ k : Fin 2048, y3 (ix2 a k) * y3 (ix2 b k) := by
  rw [acc_step_apply', acc_step_apply', acc_step_apply', acc_step_apply', zero_fill_apply']

/-- The closing reduction: the sum over all entries of the squared difference of the two accumulators. -/
theorem closing_sum_apply (g h : FVec Ideal S64x64 .f32) (j : S1x1.Idx) :
    k0_pay5 (F := Ideal) g h j
      = ∑ a : Fin 64, ∑ b : Fin 64, (g (ix2 a b) - h (ix2 a b)) * (g (ix2 a b) - h (ix2 a b)) := by
  unfold k0_pay5
  dsimp only
  -- the one output element is the one element of the length-1 vector
  refine (shapeCast_apply _ shapeCasts_S1_S1x1 j (ix1 (0 : Fin 1)) (by
    rw [Shape.rowMajor_val_one, Shape.rowMajor_val_two]
    have h0 : (j 0).val < 1 := (j 0).isLt
    have h1 : (j 1).val < 1 := (j 1).isLt
    show (0 : Nat) = (j 0).val * 1 + (j 1).val
    omega)).trans ?_
  -- which is the sum down the column of row sums
  refine (Ideal.multiReduction_add_single _ 0x00000000#32 reduces_S64x1_S1 (.inl rfl) rfl (ix1 (0 : Fin 1))).trans ?_
  refine Finset.sum_congr rfl fun a _ => ?_
  -- entry `a` of the column is entry `a` of the vector of row sums
  refine (shapeCast_apply _ shapeCasts_S64_S64x1 _ (ix1 a) (by
    rw [Shape.rowMajor_val_one, Shape.rowMajor_val_two]
    show a.val = a.val * 1 + 0
    omega)).trans ?_
  -- which is the lane sum along row `a`
  refine (Ideal.multiReduction_add_single _ 0x00000000#32 reduces_S64x64_S64 (.inl rfl) rfl (ix1 a)).trans ?_
  refine Finset.sum_congr rfl fun b _ => ?_
  -- the row's index with the lane put back is the entry `(a, b)`
  have e : reduces_S64x64_S64.lift (ix1 a) b = ix2 a b :=
    funext fun d => Fin.ext (match d with
      | ⟨0, _⟩ => rfl
      | ⟨1, _⟩ => rfl)
  rw [e]
  rfl

/-! ## The payloads over a whole layout -/

/-- If the four blocks are the four stretches of 2048 columns of a layout `X` of 8192 columns, four steps from the
    zero fill leave the layout's Gram entry: the stretches' sums, added in turn onto zero, are the sum over all
    columns. -/
theorem acc_four_gram (x0 x1 x2 x3 : FVec Ideal S64x2048 .f32) (X : Fin 64 → Fin 8192 → EReal)
    (h0 : ∀ a k, x0 (ix2 a k) = X a (GramIdentity.col 0 k)) (h1 : ∀ a k, x1 (ix2 a k) = X a (GramIdentity.col 1 k))
    (h2 : ∀ a k, x2 (ix2 a k) = X a (GramIdentity.col 2 k)) (h3 : ∀ a k, x3 (ix2 a k) = X a (GramIdentity.col 3 k))
    (a b : Fin 64) :
    k0_pay3 (F := Ideal) x3 (k0_pay3 (F := Ideal) x2 (k0_pay3 (F := Ideal) x1 (k0_pay3 (F := Ideal) x0 (k0_pay1 (F := Ideal))))) (ix2 a b)
      = ∑ k : Fin 8192, X a k * X b k := by
  rw [acc_four_apply]
  simp only [h0, h1, h2, h3]
  exact GramIdentity.chain_stretches fun k => X a k * X b k

/-- The same for the second accumulator. -/
theorem acc_four_gram' (y0 y1 y2 y3 : FVec Ideal S64x2048 .f32) (Y : Fin 64 → Fin 8192 → EReal)
    (h0 : ∀ a k, y0 (ix2 a k) = Y a (GramIdentity.col 0 k)) (h1 : ∀ a k, y1 (ix2 a k) = Y a (GramIdentity.col 1 k))
    (h2 : ∀ a k, y2 (ix2 a k) = Y a (GramIdentity.col 2 k)) (h3 : ∀ a k, y3 (ix2 a k) = Y a (GramIdentity.col 3 k))
    (a b : Fin 64) :
    k0_pay4 (F := Ideal) y3 (k0_pay4 (F := Ideal) y2 (k0_pay4 (F := Ideal) y1 (k0_pay4 (F := Ideal) y0 (k0_pay2 (F := Ideal))))) (ix2 a b)
      = ∑ k : Fin 8192, Y a k * Y b k := by
  rw [acc_four_apply']
  simp only [h0, h1, h2, h3]
  exact GramIdentity.chain_stretches fun k => Y a k * Y b k

/-- The program's last two operations applied to the closing reduction: with the two accumulators known entry by entry
    as `G` and `H`, the result element is `(∑ₐ ∑_b (G a b − H a b)²)` times the scale word. -/
theorem scaled_closing (g h : FVec Ideal S64x64 .f32) (G H : Fin 64 → Fin 64 → EReal)
    (hg : ∀ a b, g (ix2 a b) = G a b) (hh : ∀ a b, h (ix2 a b) = H a b) (j : S_.Idx) :
    mulf (shapeCast S_ (k0_pay5 (F := Ideal) g h) shapeCasts_S1x1_S_) (constant (F := Ideal) S_ .f32 0x2C800000#32) j
      = (∑ a : Fin 64, ∑ b : Fin 64, (G a b - H a b) * (G a b - H a b)) * Ideal.ofBits .f32 0x2C800000#32 := by
  show shapeCast S_ (k0_pay5 (F := Ideal) g h) shapeCasts_S1x1_S_ j * Ideal.ofBits .f32 0x2C800000#32 = _
  refine congrArg (· * Ideal.ofBits .f32 0x2C800000#32) ?_
  refine (shapeCast_apply _ shapeCasts_S1x1_S_ j (ix2 (0 : Fin 1) (0 : Fin 1)) (by
    rw [Shape.rowMajor_val_two]
    have hj : (S_.rowMajor j).val < 1 := (S_.rowMajor j).isLt
    show (0 : Nat) * 1 + 0 = _
    omega)).trans ?_
  rw [closing_sum_apply]
  simp only [hg, hh]

end Cert.KernelIdeal.Payload

end
-- ==== Proof.GramSpec.lean ====
/-
  The two programs' results as closed forms on the extended reals, and why they agree on finite data.

  With the two arguments laid out as `x, y : 64 channels × 8192 positions`:
    * the kernel ends at `channelForm x y · 2⁻³⁸`, where `channelForm` sums over pairs of channels the squared
      difference of the two Gram entries `∑ₖ x a k · x b k` and `∑ₖ y a k · y b k`;
    * the reference ends at `((0 + positionForm x y) / 8192) / 8192 / 4096`, where `positionForm` sums over pairs of
      positions `(x·ₚ · x·_q)² + (y·ₚ · y·_q)² − 2 (x·ₚ · y·_q)²`.
  On finite data both forms are coercions of real sums (`channelForm_coe`, `positionForm_coe`), the real sums are
  equal (the Gram identity), and the three divisions by powers of two are one product with `2⁻³⁸`
  (`8192 · 8192 · 4096 = 2³⁸`).  Finiteness is needed: the identity rests on distributivity, which the extended reals
  lack at the infinities.
-/
import proofs.«127739_j83365315215382_2_alg».proof.Proof.GramIdentity
import Idealize.ShloMosaic.PureOps.Ideal.Laws
import Idealize.ShloMosaic.Lib.ValueIdx

noncomputable section

namespace Cert.GramSpec

open Idealize.ShloMosaic

/-- An argument of shape [1, 64, 128, 64] laid out as 64 channels by 8192 positions (the reshape both programs begin
    with), as a function of the two coordinates. -/
def rowsOf (z : (⟨4, ![1, 64, 128, 64]⟩ : Shape).Idx → EReal)
    (h : (⟨4, ![1, 64, 128, 64]⟩ : Shape).ShapeCasts ⟨2, ![64, 8192]⟩) : Fin 64 → Fin 8192 → EReal :=
  fun c p => shapeCast ⟨2, ![64, 8192]⟩ z h (ValueIdx.ix2 c p)

/-- The Gram entry of rows `a` and `b`: their inner product over all positions. -/
def gram (x : Fin 64 → Fin 8192 → EReal) (a b : Fin 64) : EReal := ∑ k : Fin 8192, x a k * x b k

/-- The inner product, over the channels, of column `p` of `x` with column `q` of `y`. -/
def inner (x y : Fin 64 → Fin 8192 → EReal) (p q : Fin 8192) : EReal := ∑ c : Fin 64, x c p * y c q

/-- The loss before scaling, summed over pairs of channels. -/
def channelForm (x y : Fin 64 → Fin 8192 → EReal) : EReal :=
  ∑ a : Fin 64, ∑ b : Fin 64, (gram x a b - gram y a b) * (gram x a b - gram y a b)

/-- The loss before scaling, summed over pairs of positions. -/
def positionForm (x y : Fin 64 → Fin 8192 → EReal) : EReal :=
  ∑ p : Fin 8192, ∑ q : Fin 8192,
    (inner x x p q * inner x x p q + inner y y p q * inner y y p q - ((2 : ℝ) : EReal) * (inner x y p q * inner x y p q))

/-! ## On finite data both forms are real -/

theorem channelForm_coe (x y : Fin 64 → Fin 8192 → ℝ) :
    channelForm (fun a k => (x a k : EReal)) (fun a k => (y a k : EReal))
      = ((∑ a, ∑ b, ((∑ k, x a k * x b k) - (∑ k, y a k * y b k)) * ((∑ k, x a k * x b k) - (∑ k, y a k * y b k)) : ℝ) : EReal) := by
  unfold channelForm gram
  simp only [← EReal.coe_mul, ← GramIdentity.coe_sum, ← EReal.coe_sub]

theorem positionForm_coe (x y : Fin 64 → Fin 8192 → ℝ) :
    positionForm (fun a k => (x a k : EReal)) (fun a k => (y a k : EReal))
      = ((∑ p, ∑ q, ((∑ c, x c p * x c q) * (∑ c, x c p * x c q) + (∑ c, y c p * y c q) * (∑ c, y c p * y c q)
          - 2 * ((∑ c, x c p * y c q) * (∑ c, x c p * y c q))) : ℝ) : EReal) := by
  unfold positionForm inner
  simp only [← EReal.coe_mul, ← GramIdentity.coe_sum, ← EReal.coe_add, ← EReal.coe_sub]

/-- The two forms agree on finite data: the Gram identity, read through the coercion. -/
theorem forms_agree (x y : Fin 64 → Fin 8192 → ℝ) :
    positionForm (fun a k => (x a k : EReal)) (fun a k => (y a k : EReal))
      = channelForm (fun a k => (x a k : EReal)) (fun a k => (y a k : EReal)) := by
  rw [channelForm_coe, positionForm_coe, GramIdentity.loss_identity]

/-! ## The float words the two programs spell -/

theorem word_8192 : Ideal.ofBits .f32 0x46000000#32 = ((8192 : ℝ) : EReal) := by
  simp [Ideal.ofBits, Ideal.ieee, -EReal.coe_mul]; norm_num

theorem word_4096 : Ideal.ofBits .f32 0x45800000#32 = ((4096 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

/-- The kernel's scale is exactly `2⁻³⁸ = 1 / (8192 · 8192 · 4096)`. -/
theorem word_scale : Ideal.ofBits .f32 0x2C800000#32 = ((1 / 8192 * (1 / 8192) * (1 / 4096) : ℝ) : EReal) := by
  simp [Ideal.ofBits, Ideal.ieee, -EReal.coe_mul]; norm_num

/-! ## The law that joins the two sides -/

/-- On finite data the kernel's scaled channel form is the reference's thrice-divided position form. -/
theorem loss_agree (x y : Fin 64 → Fin 8192 → ℝ) :
    channelForm (fun a k => (x a k : EReal)) (fun a k => (y a k : EReal)) * Ideal.ofBits .f32 0x2C800000#32
      = Ideal.div (Ideal.div (Ideal.div
          (0 + positionForm (fun a k => (x a k : EReal)) (fun a k => (y a k : EReal)))
          (Ideal.ofBits .f32 0x46000000#32)) (Ideal.ofBits .f32 0x46000000#32)) (Ideal.ofBits .f32 0x45800000#32) := by
  rw [forms_agree, channelForm_coe, word_8192, word_4096, word_scale, zero_add,
    Ideal.div_coe (by norm_num : (4096 : ℝ) ≠ 0), Ideal.div_coe (by norm_num : (8192 : ℝ) ≠ 0),
    Ideal.div_coe (by norm_num : (8192 : ℝ) ≠ 0)]
  simp only [← EReal.coe_mul]
  congr 1
  ring

end Cert.GramSpec

end
-- ==== Proof.KernelClosed.lean ====
/-
  The kernel's result as the channel form.

  After the fourth grid point the first accumulator's entry `(a, b)` is zero plus the four stretches' contributions
  `∑ₖ x (a, 2048 t + k) · x (b, 2048 t + k)`, `t = 0 … 3`, added in turn: the Gram entry `∑ₖ x a k · x b k` over all
  8192 positions (addition on the extended reals is commutative and associative, so no finiteness is needed here).
  Likewise the second.  The output element is the sum over all `(a, b)` of the squared difference of the two, and the
  program's result is that element times the scale word.
-/
import proofs.«127739_j83365315215382_2_alg».proof.Proof.KernelWhole
import proofs.«127739_j83365315215382_2_alg».proof.Proof.KernelPayload
import proofs.«127739_j83365315215382_2_alg».proof.Proof.GramSpec

noncomputable section

open Idealize.ShloMosaic Idealize.ShloMosaic.TcCoe Idealize.SL.Sem

namespace Cert.KernelIdeal.Closed

open Cert.KernelIdeal Cert.KernelIdeal.Gen Cert.KernelIdeal.Carried Cert.KernelIdeal.Whole Cert.KernelIdeal.Payload
open Idealize.ShloMosaic.ValueIdx Cert.GramSpec

variable (m : (ℓ : Loc nD τ sig) → Buf (Elt Ideal) ℓ)

/-- The first accumulator after the last point is the first layout's Gram matrix. -/
theorem gramAcc_apply (c : Dev nD) (a b : Fin 64) :
    gramAcc (F := Ideal) m c 3 h3 (ix2 a b)
      = gram (rowsOf (m ((c : Thread nD τ).loc main_arg0)) shapeCasts_S1x64x128x64_S64x8192) a b :=
  acc_four_gram (iblk m c 0 ⟨0, _⟩) (iblk m c 0 ⟨1, _⟩) (iblk m c 0 ⟨2, _⟩) (iblk m c 0 ⟨3, _⟩)
    (rowsOf (m ((c : Thread nD τ).loc main_arg0)) shapeCasts_S1x64x128x64_S64x8192)
    (fun a k => blockX_apply m c ⟨0, _⟩ 0 rfl a k) (fun a k => blockX_apply m c ⟨1, _⟩ 1 rfl a k)
    (fun a k => blockX_apply m c ⟨2, _⟩ 2 rfl a k) (fun a k => blockX_apply m c ⟨3, _⟩ 3 rfl a k) a b

/-- The second accumulator after the last point is the second layout's Gram matrix. -/
theorem gramAcc'_apply (c : Dev nD) (a b : Fin 64) :
    gramAcc' (F := Ideal) m c 3 h3 (ix2 a b)
      = gram (rowsOf (m ((c : Thread nD τ).loc main_arg1)) shapeCasts_S1x64x128x64_S64x8192) a b :=
  acc_four_gram' (iblk m c 1 ⟨0, _⟩) (iblk m c 1 ⟨1, _⟩) (iblk m c 1 ⟨2, _⟩) (iblk m c 1 ⟨3, _⟩)
    (rowsOf (m ((c : Thread nD τ).loc main_arg1)) shapeCasts_S1x64x128x64_S64x8192)
    (fun a k => blockY_apply m c ⟨0, _⟩ 0 rfl a k) (fun a k => blockY_apply m c ⟨1, _⟩ 1 rfl a k)
    (fun a k => blockY_apply m c ⟨2, _⟩ 2 rfl a k) (fun a k => blockY_apply m c ⟨3, _⟩ 3 rfl a k) a b

/-- The program's result element: the channel form of the two layouts, times the scale word. -/
theorem result_closed (c : Dev nD) (j : S_.Idx) :
    mulf (shapeCast S_ (outElt (F := Ideal) m c) shapeCasts_S1x1_S_) (constant (F := Ideal) S_ .f32 0x2C800000#32) j
      = channelForm (rowsOf (m ((c : Thread nD τ).loc main_arg0)) shapeCasts_S1x64x128x64_S64x8192)
          (rowsOf (m ((c : Thread nD τ).loc main_arg1)) shapeCasts_S1x64x128x64_S64x8192)
        * Ideal.ofBits .f32 0x2C800000#32 :=
  scaled_closing (gramAcc (F := Ideal) m c 3 h3) (gramAcc' (F := Ideal) m c 3 h3)
    (gram (rowsOf (m ((c : Thread nD τ).loc main_arg0)) shapeCasts_S1x64x128x64_S64x8192))
    (gram (rowsOf (m ((c : Thread nD τ).loc main_arg1)) shapeCasts_S1x64x128x64_S64x8192))
    (gramAcc_apply m c) (gramAcc'_apply m c) j

end Cert.KernelIdeal.Closed

end
-- ==== Proof.ReferenceClosed.lean ====
/-
  The reference's result as the position form.

  The reference transposes the two [64, 8192] layouts to [8192, 64] feature matrices, forms the three 8192 x 8192
  products F Fᵀ, S Sᵀ, F Sᵀ (each entry `(p, q)` the inner product over the 64 channels of column `p` of one layout
  with column `q` of the other — the transposes only exchange the two coordinates), adds zero to each, squares,
  combines them as `· + · − 2 ·`, sums all entries onto zero, and divides by 8192, 8192 and 4096.
-/
import proofs.«127739_j83365315215382_2_alg».proof.Proof.Gen.ReferenceIdeal.Read
import proofs.«127739_j83365315215382_2_alg».proof.Proof.GramSpec
import Idealize.ShloMosaic.Lib.ValueIdx

noncomputable section

namespace Cert.ReferenceIdeal.Closed

open Cert.ReferenceIdeal Cert.ReferenceIdeal.Read Idealize.ShloMosaic Idealize.ShloMosaic.ValueIdx Cert.GramSpec

/-! ## Where the products read the two layouts -/

theorem ff_left (p q : Fin 8192) (k : Fin 64) : idx_main_v1 (lidx_main_v5 (ix2 p q) k) = ix2 k p :=
  funext fun a => Fin.ext (match a with | ⟨0, _⟩ => rfl | ⟨1, _⟩ => rfl)
theorem ff_right (p q : Fin 8192) (k : Fin 64) : idx_main_v1 (idx_main_v4 (ridx_main_v5 (ix2 p q) k)) = ix2 k q :=
  funext fun a => Fin.ext (match a with | ⟨0, _⟩ => rfl | ⟨1, _⟩ => rfl)
theorem ss_left (p q : Fin 8192) (k : Fin 64) : idx_main_v3 (lidx_main_v10 (ix2 p q) k) = ix2 k p :=
  funext fun a => Fin.ext (match a with | ⟨0, _⟩ => rfl | ⟨1, _⟩ => rfl)
theorem ss_right (p q : Fin 8192) (k : Fin 64) : idx_main_v3 (idx_main_v9 (ridx_main_v10 (ix2 p q) k)) = ix2 k q :=
  funext fun a => Fin.ext (match a with | ⟨0, _⟩ => rfl | ⟨1, _⟩ => rfl)
theorem fs_left (p q : Fin 8192) (k : Fin 64) : idx_main_v1 (lidx_main_v16 (ix2 p q) k) = ix2 k p :=
  funext fun a => Fin.ext (match a with | ⟨0, _⟩ => rfl | ⟨1, _⟩ => rfl)
theorem fs_right (p q : Fin 8192) (k : Fin 64) : idx_main_v3 (idx_main_v15 (ridx_main_v16 (ix2 p q) k)) = ix2 k q :=
  funext fun a => Fin.ext (match a with | ⟨0, _⟩ => rfl | ⟨1, _⟩ => rfl)

/-! ## The result -/

/-- The reference's result element is the position form of the two layouts, on zero, divided three times. -/
theorem result_closed (x0 x1 : (⟨S1x64x128x64, .f32⟩ : BufTy).Contents (Elt Ideal)) (j : S_.Idx) :
    val_main_v26 (F := Ideal) x0 x1 j
      = Ideal.div (Ideal.div (Ideal.div
          (0 + positionForm (rowsOf x0 Facts₀.shapeCasts_S1x64x128x64_S64x8192) (rowsOf x1 Facts₀.shapeCasts_S1x64x128x64_S64x8192))
          (Ideal.ofBits .f32 0x46000000#32)) (Ideal.ofBits .f32 0x46000000#32)) (Ideal.ofBits .f32 0x45800000#32) := by
  rw [val_main_v26_apply, val_main_v25_apply, val_main_v24_apply, val_main_v23_apply, sum_idx2]
  simp only [val_main_v22_apply, val_main_v14_apply, val_main_v21_apply, val_main_v8_apply, val_main_v13_apply,
    val_main_v19_apply, val_main_v20_apply, val_main_v7_apply, val_main_v12_apply, val_main_v18_apply,
    val_main_v5_apply, val_main_v10_apply, val_main_v16_apply, val_main_v6_apply, val_main_v11_apply,
    val_main_v17_apply, val_main_v1_apply, val_main_v3_apply, val_main_v4_apply, val_main_v9_apply,
    val_main_v15_apply, val_main_cst_apply, val_main_cst_0_apply, val_main_cst_1_apply, val_main_cst_2_apply,
    val_main_cst_3_apply, val_main_cst_4_apply, val_main_cst_5_apply, val_main_cst_6_apply,
    ff_left, ff_right, ss_left, ss_right, fs_left, fs_right,
    Ideal.addf_def, Ideal.mulf_def, Ideal.subf_def, Ideal.hostDivf_def, Ideal.ofBits_def, Ideal.ofBits_zero_f32,
    add_zero, word_two]
  rfl

end Cert.ReferenceIdeal.Closed

end
-- ==== Proof.FiniteInputs.lean ====
/-
  From the precondition to real inputs.

  The precondition says, of each argument, that every element's absolute value compares below `+∞`, all the
  comparisons conjoined by an `and`-reduction that comes out 1.  An extended real with `max x (−x) < ⊤` is neither
  `⊤` nor `⊥`, so it is the coercion of a real number.
-/
import proofs.«127739_j83365315215382_2_alg».proof.Pre_finite_inputs
import proofs.«127739_j83365315215382_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- The rank-0 shape has one index. -/
instance : Subsingleton S_.Idx := ⟨fun a b => funext fun d => d.elim0⟩

/-- The word the precondition compares against is `+∞`. -/
theorem word_inf : Ideal.ofBits .f32 0x7F800000#32 = ⊤ := by
  simp [Ideal.ofBits, Ideal.ieee]

/-- An extended real whose absolute value compares below `+∞` is a real number. -/
theorem real_of_abs_lt (x : EReal)
    (h : FloatOps.cmpf (F := Ideal) .olt (FloatOps.hostAbsf (F := Ideal) (φ := .f32) x) (Ideal.ofBits .f32 0x7F800000#32) = 1#1) :
    ∃ r : ℝ, x = (r : EReal) := by
  have h' : max x (-x) < ⊤ := by
    have e : BitVec.ofBool (decide (max x (-x) < Ideal.ofBits .f32 0x7F800000#32)) = 1#1 := h
    rw [word_inf] at e
    by_contra hn
    simp [hn] at e
  induction x using EReal.rec with
  | bot => simp at h'
  | coe r => exact ⟨r, rfl⟩
  | top => simp at h'

/-- Under the precondition every element of both arguments is a real number. -/
theorem finite_of_pre (x0 x1 : FVec Ideal S1x64x128x64 .f32) (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  exact ⟨fun i => real_of_abs_lt _ (Host.reduce_andi_all _ _ _ _ _ ha i),
    fun i => real_of_abs_lt _ (Host.reduce_andi_all _ _ _ _ _ hb i)⟩

end Cert.Finite

end
-- ==== Proof.lean ====
/-
  A loss written two ways: the squared Frobenius norm of the difference of two Gram matrices.

  Both programs take two arrays of shape [1, 64, 128, 64] and lay each out as `x, y : 64 channels × 8192 positions`.
    * The kernel streams the positions in four stretches of 2048 columns, accumulating the two 64 x 64 Gram matrices
      `x xᵀ` and `y yᵀ` in scratch memory, and after the last stretch reduces the squared difference of the two to
      one number, which the program multiplies by `2⁻³⁸`.
    * The reference forms the three 8192 x 8192 matrices `xᵀx`, `yᵀy`, `xᵀy`, squares them entrywise, sums
      `(xᵀx)² + (yᵀy)² − 2 (xᵀy)²` over all entries and divides by 8192, 8192 and 4096.
  Over the reals `∑ᵢⱼ (uᵢ · vⱼ)² = ⟨u uᵀ, v vᵀ⟩` (expand the square and exchange the sums), so the reference's sum is
  `‖x xᵀ‖² + ‖y yᵀ‖² − 2 ⟨x xᵀ, y yᵀ⟩ = ‖x xᵀ − y yᵀ‖²`, the kernel's; and `8192 · 8192 · 4096 = 2³⁸`.  The identity
  uses distributivity, so it is proved for real data and reaches the extended reals through the precondition: every
  input element is finite.

  The modules: `GramIdentity` (the identity over ℝ, and 8192 columns as four stretches), `GramSpec` (both results as
  closed forms on the extended reals and their agreement on finite data), `KernelCarried` / `KernelPayload` /
  `KernelWhole` / `KernelClosed` (the kernel's accumulators point by point, its arithmetic at an index, its arrays
  after the run, its result as the channel form), `ReferenceClosed` (the reference's result as the position form),
  `FiniteInputs` (the precondition gives real inputs).  The kernel's and the reference's runs and the three frames
  are the generated modules'.
-/
import proofs.«127739_j83365315215382_2_alg».proof.Defs
import proofs.«127739_j83365315215382_2_alg».proof.Proof.Gen.Kernel
import proofs.«127739_j83365315215382_2_alg».proof.Proof.Gen.Kernel.Skeleton
import proofs.«127739_j83365315215382_2_alg».proof.Proof.Gen.Kernel.Launch
import proofs.«127739_j83365315215382_2_alg».proof.Proof.Gen.Kernel.Points
import proofs.«127739_j83365315215382_2_alg».proof.Proof.Gen.Kernel.Frame
import proofs.«127739_j83365315215382_2_alg».proof.Proof.Gen.KernelIdeal
import proofs.«127739_j83365315215382_2_alg».proof.Proof.Gen.KernelIdeal.Skeleton
import proofs.«127739_j83365315215382_2_alg».proof.Proof.Gen.KernelIdeal.Launch
import proofs.«127739_j83365315215382_2_alg».proof.Proof.Gen.KernelIdeal.Points
import proofs.«127739_j83365315215382_2_alg».proof.Proof.Gen.KernelIdeal.Frame
import proofs.«127739_j83365315215382_2_alg».proof.Proof.Gen.ReferenceIdeal
import proofs.«127739_j83365315215382_2_alg».proof.Proof.Gen.ReferenceIdeal.Run
import proofs.«127739_j83365315215382_2_alg».proof.Proof.Gen.ReferenceIdeal.Read
import proofs.«127739_j83365315215382_2_alg».proof.Proof.Gen.Pre_finite_inputs
import proofs.«127739_j83365315215382_2_alg».proof.Proof.KernelClosed
import proofs.«127739_j83365315215382_2_alg».proof.Proof.ReferenceClosed
import proofs.«127739_j83365315215382_2_alg».proof.Proof.FiniteInputs
import Idealize.ShloMosaic.Adequacy
import Idealize.ShloMosaic.Init

noncomputable section

namespace Cert.Proof

open Idealize.ShloMosaic Idealize.SL.Sem

/-- A layout of finite elements is the coercion of a layout of real numbers. -/
theorem rowsOf_real (z : (⟨4, ![1, 64, 128, 64]⟩ : Shape).Idx → EReal)
    (h : (⟨4, ![1, 64, 128, 64]⟩ : Shape).ShapeCasts ⟨2, ![64, 8192]⟩) (hz : ∀ i, ∃ r : ℝ, z i = (r : EReal)) :
    ∃ x : Fin 64 → Fin 8192 → ℝ, Cert.GramSpec.rowsOf z h = fun a k => (x a k : EReal) := by
  have hx : ∀ c p, ∃ r : ℝ, Cert.GramSpec.rowsOf z h c p = (r : EReal) := fun c p => by
    unfold Cert.GramSpec.rowsOf shapeCast
    exact hz _
  choose x hx using hx
  exact ⟨x, funext fun c => funext fun p => hx c p⟩

/-- The word-level kernel runs and keeps its arguments. -/
theorem frame_kernel : Cert.frame_Kernel := fun m ρ _ => Cert.Kernel.Gen.frame m ρ

/-- So does the kernel read at the exact instance. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the exact reading. -/
theorem preserves : Cert.preserves_Kernel_KernelIdeal := trivial

/-- The kernel ends at the channel form times `2⁻³⁸`, the reference at the position form divided by `2¹³`, `2¹³`,
    `2¹²`, of arguments that agree; on the finite inputs the precondition grants, these are one number. -/
theorem algebraic : Cert.algebraic_KernelIdeal_ReferenceIdeal := by
  intro m ρ m' ρ' hpre hagree
  refine ⟨fun c => mulf (shapeCast Cert.KernelIdeal.S_ (Cert.KernelIdeal.Whole.outElt (F := Ideal) m c)
      Cert.KernelIdeal.Facts₀.shapeCasts_S1x1_S_) (constant (F := Ideal) Cert.KernelIdeal.S_ .f32 0x2C800000#32),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2]
  funext j
  rw [Cert.ReferenceIdeal.Closed.result_closed]
  refine Eq.trans ?_ (Cert.KernelIdeal.Closed.result_closed m c j).symm
  obtain ⟨hx, hy⟩ := Cert.Finite.finite_of_pre _ _ (hpre c)
  obtain ⟨x, ex⟩ := rowsOf_real _ Cert.KernelIdeal.Facts₀.shapeCasts_S1x64x128x64_S64x8192 hx
  obtain ⟨y, ey⟩ := rowsOf_real _ Cert.KernelIdeal.Facts₀.shapeCasts_S1x64x128x64_S64x8192 hy
  rw [ex, ey]
  exact (Cert.GramSpec.loss_agree x y).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
